-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S2048 : Shape := ⟨1, ![2048]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1048576x128 .f32) (main_arg1 : FVec F S1048576x128 .f32) (main_arg2 : IVec S2048 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .ne main_arg2 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  main_v12
-- ==== Kernel.lean ====
abbrev S1048576x128 : Shape := ⟨2, ![1048576, 128]⟩
abbrev S2048 : Shape := ⟨1, ![2048]⟩
abbrev S1 : Shape := ⟨1, ![1]⟩
abbrev S2047 : Shape := ⟨1, ![2047]⟩
abbrev S_ : Shape := ⟨0, ![]⟩
abbrev S1048576 : Shape := ⟨1, ![1048576]⟩
abbrev S2048x1 : Shape := ⟨2, ![2048, 1]⟩
abbrev S1048576x1 : Shape := ⟨2, ![1048576, 1]⟩
abbrev S1x1 : Shape := ⟨2, ![1, 1]⟩
abbrev S8192x128 : Shape := ⟨2, ![8192, 128]⟩
abbrev S64x128 : Shape := ⟨2, ![64, 128]⟩
abbrev S8192 : Shape := ⟨1, ![8192]⟩

abbrev nBuf : Space → Nat
  | .hbm => 72
  | .vmem => 8
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S2048, .i32⟩
  | .hbm, ⟨3, _⟩ => ⟨S2048, .i32⟩
  | .hbm, ⟨4, _⟩ => ⟨S1, .i32⟩
  | .hbm, ⟨5, _⟩ => ⟨S2047, .i32⟩
  | .hbm, ⟨6, _⟩ => ⟨S2048, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S_, .i32⟩
  | .hbm, ⟨15, _⟩ => ⟨S1048576, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S_, .i32⟩
  | .hbm, ⟨25, _⟩ => ⟨S2048, .i32⟩
  | .hbm, ⟨26, _⟩ => ⟨S1048576, .i32⟩
  | .hbm, ⟨27, _⟩ => ⟨S_, .i32⟩
  | .hbm, ⟨28, _⟩ => ⟨S_, .i32⟩
  | .hbm, ⟨29, _⟩ => ⟨S1048576, .i32⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S_, .i32⟩
  | .hbm, ⟨34, _⟩ => ⟨S1048576, .i32⟩
  | .hbm, ⟨35, _⟩ => ⟨S1048576, .i1⟩
  | .hbm, ⟨36, _⟩ => ⟨S_, .i32⟩
  | .hbm, ⟨37, _⟩ => ⟨S1048576, .i32⟩
  | .hbm, ⟨38, _⟩ => ⟨S1048576, .i32⟩
  | .hbm, ⟨39, _⟩ => ⟨S1048576, .i32⟩
  | .hbm, ⟨40, _⟩ => ⟨S1048576x1, .i32⟩
  | .hbm, ⟨41, _⟩ => ⟨S1, .i32⟩
  | .hbm, ⟨42, _⟩ => ⟨S_, .i32⟩
  | .hbm, ⟨43, _⟩ => ⟨S1048576x1, .i32⟩
  | .hbm, ⟨44, _⟩ => ⟨S1048576x1, .i1⟩
  | .hbm, ⟨45, _⟩ => ⟨S1x1, .i32⟩
  | .hbm, ⟨46, _⟩ => ⟨S1048576x1, .i32⟩
  | .hbm, ⟨47, _⟩ => ⟨S1048576x1, .i1⟩
  | .hbm, ⟨48, _⟩ => ⟨S1048576x1, .i1⟩
  | .hbm, ⟨49, _⟩ => ⟨S_, .i1⟩
  | .hbm, ⟨50, _⟩ => ⟨S1048576, .i1⟩
  | .hbm, ⟨51, _⟩ => ⟨S1048576, .i32⟩
  | .hbm, ⟨52, _⟩ => ⟨S_, .i32⟩
  | .hbm, ⟨53, _⟩ => ⟨S1048576, .i32⟩
  | .hbm, ⟨54, _⟩ => ⟨S1048576, .i32⟩
  | .hbm, ⟨55, _⟩ => ⟨S_, .i32⟩
  | .hbm, ⟨56, _⟩ => ⟨S1048576, .i32⟩
  | .hbm, ⟨57, _⟩ => ⟨S1048576, .i1⟩
  | .hbm, ⟨58, _⟩ => ⟨S_, .i32⟩
  | .hbm, ⟨59, _⟩ => ⟨S1048576, .i32⟩
  | .hbm, ⟨60, _⟩ => ⟨S1048576, .i32⟩
  | .hbm, ⟨61, _⟩ => ⟨S1048576, .i32⟩
  | .hbm, ⟨62, _⟩ => ⟨S1048576x1, .i32⟩
  | .hbm, ⟨63, _⟩ => ⟨S1048576, .i32⟩
  | .hbm, ⟨64, _⟩ => ⟨S1048576, .f32⟩
  | .hbm, ⟨65, _⟩ => ⟨S_, .f32⟩
  | .hbm, ⟨66, _⟩ => ⟨S1048576, .f32⟩
  | .hbm, ⟨67, _⟩ => ⟨S1048576, .f32⟩
  | .hbm, ⟨68, _⟩ => ⟨S8192x128, .f32⟩
  | .hbm, ⟨69, _⟩ => ⟨S8192x128, .f32⟩
  | .hbm, ⟨70, _⟩ => ⟨S_, .f32⟩
  | .hbm, ⟨71, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v17 : Ref sig .tc := ⟨.hbm, 54, rfl⟩
abbrev main_c_6 : Ref sig .tc := ⟨.hbm, 55, rfl⟩
abbrev main_v18 : Ref sig .tc := ⟨.hbm, 56, rfl⟩
abbrev main_v19 : Ref sig .tc := ⟨.hbm, 57, rfl⟩
abbrev main_c_7 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_8 : Ref sig .tc := ⟨.hbm, 70, rfl⟩
abbrev main_v30 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2048_S1_2047 : S2048.Slices ![2047] S1
  slices_S2048_S2047_0 : S2048.Slices ![0] S2047
  concatenates_S1_S2047_S2048_d0 : Shape.Concatenates [S1, S2047] S2048 0
  bcast_S_S1 : S_.BroadcastsInDim S1 (![] : Fin 0 → Fin S1.rank)
  bcast_S_S_ : S_.BroadcastsInDim S_ (![] : Fin 0 → Fin S_.rank)
  reduceWindows_S2048_S2048_w2048s1p2047_0 : S2048.ReduceWindows (![2048] : Fin 1 → Nat) ![1] ![2047] ![0] S2048
  h_S_ : 0 < S_.numel
  bcast_S_S1048576 : S_.BroadcastsInDim S1048576 (![] : Fin 0 → Fin S1048576.rank)
  bcast_S_S2048 : S_.BroadcastsInDim S2048 (![] : Fin 0 → Fin S2048.rank)
  bcast_S2048_S2048x1_0 : S2048.BroadcastsInDim S2048x1 (![0] : Fin 1 → Fin S2048x1.rank)
  reduceWindows_S1048576_S1048576_w1048576s1p1048575_0 : S1048576.ReduceWindows (![1048576] : Fin 1 → Nat) ![1] ![1048575] ![0] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  shapeCasts_S1048576_S8192x128 : S1048576.ShapeCasts S8192x128
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S64x128 : S8192.ShapeCasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reducesTo_S8192x128_S_d0_1 : S8192x128.ReducesTo [0, 1] S_
  scatter_S2048_S1_S__n_0_0_0_wf : ScatterDims.WF S2048 S1 S_ [] [0] [0] 0
  scatter_S1048576_S2048x1_S2048_n_0_0_1_wf : ScatterDims.WF S1048576 S2048x1 S2048 [] [0] [0] 1
  gather_S2048_S1048576x1_S1048576_n_0_n_n_0_1_1_wf : GatherDims.WF S2048 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S8192x128.size a
  hwx0_2 : ∀ i : grid0.Coords, EltTy.bits .f32 = 32 ∨ (Rect.block (s := S8192x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S8192x128.size a
  hwx0_3 : ∀ i : grid0.Coords, EltTy.bits .f32 = 32 ∨ (Rect.block (s := S8192x128) S64x128.size (cc0_transform_3 i) (hinb0_3 i)).WholeWords (EltTy.packing .f32)

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S1048576_S2048x1_S2048_n_0_0_1 : ScatterDims S1048576 S2048x1 S2048 where
  updateWindowDims := []
  insertedWindowDims := [0]
  scatterDimsToOperandDims := [0]
  indexVectorDim := 1
  wf := scatter_S1048576_S2048x1_S2048_n_0_0_1_wf
def gather_S2048_S1048576x1_S1048576_n_0_n_n_0_1_1 : GatherDims S2048 S1048576x1 S1048576 where
  offsetDims := []
  collapsedSliceDims := [0]
  operandBatchingDims := []
  startIndicesBatchingDims := []
  startIndexMap := [0]
  indexVectorDim := 1
  sliceSizes := ![1]
  wf := gather_S2048_S1048576x1_S1048576_n_0_n_n_0_1_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S2048 : Shape := ⟨1, ![2048]⟩
abbrev S_ : Shape := ⟨0, ![]⟩
abbrev S1048576 : Shape := ⟨1, ![1048576]⟩
abbrev S1 : Shape := ⟨1, ![1]⟩
abbrev S2047 : Shape := ⟨1, ![2047]⟩
abbrev S2048x1 : Shape := ⟨2, ![2048, 1]⟩
abbrev S1048576x1 : Shape := ⟨2, ![1048576, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S2048, .i32⟩
  | .hbm, ⟨3, _⟩ => ⟨S1048576x128, .f32⟩
  | .hbm, ⟨4, _⟩ => ⟨S1048576x128, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S2048, .i32⟩
  | .hbm, ⟨9, _⟩ => ⟨S1, .i32⟩
  | .hbm, ⟨10, _⟩ => ⟨S2047, .i32⟩
  | .hbm, ⟨11, _⟩ => ⟨S2048, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S_, .i32⟩
  | .hbm, ⟨20, _⟩ => ⟨S1048576, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S_, .i32⟩
  | .hbm, ⟨30, _⟩ => ⟨S2048, .i32⟩
  | .hbm, ⟨31, _⟩ => ⟨S1048576, .i32⟩
  | .hbm, ⟨32, _⟩ => ⟨S_, .i32⟩
  | .hbm, ⟨33, _⟩ => ⟨S_, .i32⟩
  | .hbm, ⟨34, _⟩ => ⟨S1048576, .i32⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S_, .i32⟩
  | .hbm, ⟨39, _⟩ => ⟨S1048576, .i32⟩
  | .hbm, ⟨40, _⟩ => ⟨S1048576, .i1⟩
  | .hbm, ⟨41, _⟩ => ⟨S_, .i32⟩
  | .hbm, ⟨42, _⟩ => ⟨S1048576, .i32⟩
  | .hbm, ⟨43, _⟩ => ⟨S1048576, .i32⟩
  | .hbm, ⟨44, _⟩ => ⟨S1048576, .i32⟩
  | .hbm, ⟨45, _⟩ => ⟨S1048576x1, .i32⟩
  | .hbm, ⟨46, _⟩ => ⟨S1, .i32⟩
  | .hbm, ⟨47, _⟩ => ⟨S_, .i32⟩
  | .hbm, ⟨48, _⟩ => ⟨S1048576x1, .i32⟩
  | .hbm, ⟨49, _⟩ => ⟨S1048576x1, .i1⟩
  | .hbm, ⟨50, _⟩ => ⟨S1x1, .i32⟩
  | .hbm, ⟨51, _⟩ => ⟨S1048576x1, .i32⟩
  | .hbm, ⟨52, _⟩ => ⟨S1048576x1, .i1⟩
  | .hbm, ⟨53, _⟩ => ⟨S1048576x1, .i1⟩
  | .hbm, ⟨54, _⟩ => ⟨S_, .i1⟩
  | .hbm, ⟨55, _⟩ => ⟨S1048576, .i1⟩
  | .hbm, ⟨56, _⟩ => ⟨S1048576, .i32⟩
  | .hbm, ⟨57, _⟩ => ⟨S_, .i32⟩
  | .hbm, ⟨58, _⟩ => ⟨S1048576, .i32⟩
  | .hbm, ⟨59, _⟩ => ⟨S1048576, .i32⟩
  | .hbm, ⟨60, _⟩ => ⟨S_, .i32⟩
  | .hbm, ⟨61, _⟩ => ⟨S1048576, .i32⟩
  | .hbm, ⟨62, _⟩ => ⟨S1048576, .i1⟩
  | .hbm, ⟨63, _⟩ => ⟨S_, .i32⟩
  | .hbm, ⟨64, _⟩ => ⟨S1048576, .i32⟩
  | .hbm, ⟨65, _⟩ => ⟨S1048576, .i32⟩
  | .hbm, ⟨66, _⟩ => ⟨S1048576, .i32⟩
  | .hbm, ⟨67, _⟩ => ⟨S1048576x1, .i32⟩
  | .hbm, ⟨68, _⟩ => ⟨S1048576, .i32⟩
  | .hbm, ⟨69, _⟩ => ⟨S1048576, .f32⟩
  | .hbm, ⟨70, _⟩ => ⟨S1048576, .f32⟩
  | .hbm, ⟨71, _⟩ => ⟨S_, .f32⟩
  | .hbm, ⟨72, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_call1_call0_c : Ref sig .tc := ⟨.hbm, 16, rfl⟩
abbrev main_call1_call0_v0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_call2_call0_c : Ref sig .tc := ⟨.hbm, 32, rfl⟩
abbrev main_call2_call0_v0 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_c_4 : Ref sig .tc := ⟨.hbm, 57, rfl⟩
abbrev main_call3_v14 : Ref sig .tc := ⟨.hbm, 58, rfl⟩
abbrev main_v21 : Ref sig .tc := ⟨.hbm, 59, rfl⟩
abbrev main_c_6 : Ref sig .tc := ⟨.hbm, 60, rfl⟩
abbrev main_v22 : Ref sig .tc := ⟨.hbm, 61, rfl⟩
abbrev main_v23 : Ref sig .tc := ⟨.hbm, 62, rfl⟩
abbrev main_c_7 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_8 : Ref sig .tc := ⟨.hbm, 71, rfl⟩
abbrev main_v31 : Ref sig .tc := ⟨.hbm, 72, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  slices_S2048_S1_2047 : S2048.Slices ![2047] S1
  slices_S2048_S2047_0 : S2048.Slices ![0] S2047
  concatenates_S1_S2047_S2048_d0 : Shape.Concatenates [S1, S2047] S2048 0
  bcast_S_S1 : S_.BroadcastsInDim S1 (![] : Fin 0 → Fin S1.rank)
  bcast_S_S_ : S_.BroadcastsInDim S_ (![] : Fin 0 → Fin S_.rank)
  reduceWindows_S2048_S2048_w2048s1p2047_0 : S2048.ReduceWindows (![2048] : Fin 1 → Nat) ![1] ![2047] ![0] S2048
  bcast_S_S1048576 : S_.BroadcastsInDim S1048576 (![] : Fin 0 → Fin S1048576.rank)
  bcast_S_S2048 : S_.BroadcastsInDim S2048 (![] : Fin 0 → Fin S2048.rank)
  bcast_S2048_S2048x1_0 : S2048.BroadcastsInDim S2048x1 (![0] : Fin 1 → Fin S2048x1.rank)
  reduceWindows_S1048576_S1048576_w1048576s1p1048575_0 : S1048576.ReduceWindows (![1048576] : Fin 1 → Nat) ![1] ![1048575] ![0] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  reducesTo_S1048576_S_d0 : S1048576.ReducesTo [0] S_
  scatter_S2048_S1_S__n_0_0_0_wf : ScatterDims.WF S2048 S1 S_ [] [0] [0] 0
  scatter_S1048576_S2048x1_S2048_n_0_0_1_wf : ScatterDims.WF S1048576 S2048x1 S2048 [] [0] [0] 1
  gather_S2048_S1048576x1_S1048576_n_0_n_n_0_1_1_wf : GatherDims.WF S2048 S1048576x1 S1048576 [] [0] [] [0] [] 1 ![1]

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S1048576_S2048x1_S2048_n_0_0_1 : ScatterDims S1048576 S2048x1 S2048 where
  updateWindowDims := []
  insertedWindowDims := [0]
  scatterDimsToOperandDims := [0]
  indexVectorDim := 1
  wf := scatter_S1048576_S2048x1_S2048_n_0_0_1_wf
def gather_S2048_S1048576x1_S1048576_n_0_n_n_0_1_1 : GatherDims S2048 S1048576x1 S1048576 where
  offsetDims := []
  collapsedSliceDims := [0]
  operandBatchingDims := []
  startIndicesBatchingDims := []
  startIndexMap := [0]
  indexVectorDim := 1
  sliceSizes := ![1]
  wf := gather_S2048_S1048576x1_S1048576_n_0_n_n_0_1_1_wf

class Facts : Prop extends Facts₀ where

variable [Facts]
-- ==== Proof.SegLen.lean ====
/-
  The segment length of each row.

  Both programs turn the table of segment lengths `num` (2048 entries) into one length per row (1048576 rows) by the
  same chain of integer operations: the table rolled by one place with a zero put in front and summed cumulatively gives
  each segment's first row; a one is added at each first row and the cumulative sum of those, less one, is the number of
  the segment a row lies in; that number (wrapped and clamped into the table) selects the row's length from the table.
  The chain is stated here once, as a function of the table, so that both programs' runs can be read against one term.
  Nothing below depends on what the chain computes except its last step: the row's length is AN ENTRY OF THE TABLE,
  so a table with no zero entry gives no zero length.
-/
import proofs.«135408_j61280593379514_2_alg».proof.Proof.Gen.KernelIdeal

noncomputable section

namespace Cert.KernelIdeal.Seg

open Idealize.ShloMosaic Cert.KernelIdeal Cert.KernelIdeal.Facts₀

/-- Each segment's first row: the table rolled by one place, a zero put in front, summed cumulatively. -/
def firstRow (num : IVec S2048 32) : IVec S2048 32 :=
  let last : IVec S1 32 := extractStridedSlice S1 ![2047] num slices_S2048_S1_2047
  let init : IVec S2047 32 := extractStridedSlice S2047 ![0] num slices_S2048_S2047_0
  let rolled : IVec S2048 32 := concatenate S2048 0 [⟨S1, last⟩, ⟨S2047, init⟩] concatenates_S1_S2047_S2048_d0
  let z0 : IVec S_ 32 := constantI S_ 32 0#32
  let at0 : IVec S1 32 := broadcastInDim S1 ![] bcast_S_S1 z0
  let z1 : IVec S_ 32 := constantI S_ 32 0#32
  let shifted : IVec S2048 32 := Host.scatter scatter_S2048_S1_S__n_0_0_0 (fun _ b => b) rolled at0 z1
  let z2 : IVec S_ 32 := constantI S_ 32 0#32
  let z2' : IVec S_ 32 := broadcastInDim S_ ![] bcast_S_S_ z2
  Host.reduceWindow IntOp.addi ![2048] ![1] ![2047] ![0] shifted z2' reduceWindows_S2048_S2048_w2048s1p2047_0 h_S_

/-- A one added at each segment's first row (a negative first row wrapped by the number of rows), over zeros. -/
def marks (first : IVec S2048 32) : IVec S1048576 32 :=
  let z3 : IVec S_ 32 := constantI S_ 32 0#32
  let zeros : IVec S1048576 32 := broadcastInDim S1048576 ![] bcast_S_S1048576 z3
  let z4 : IVec S_ 32 := constantI S_ 32 0#32
  let zeros' : IVec S2048 32 := broadcastInDim S2048 ![] bcast_S_S2048 z4
  let neg : IVec S2048 1 := cmpi .slt first zeros'
  let n0 : IVec S_ 32 := constantI S_ 32 1048576#32
  let n1 : IVec S2048 32 := broadcastInDim S2048 ![] bcast_S_S2048 n0
  let wrapped : IVec S2048 32 := addi first n1
  let first' : IVec S2048 32 := select neg wrapped first
  let firstCol : IVec S2048x1 32 := broadcastInDim S2048x1 ![0] bcast_S2048_S2048x1_0 first'
  let o0 : IVec S_ 32 := constantI S_ 32 1#32
  let ones : IVec S2048 32 := broadcastInDim S2048 ![] bcast_S_S2048 o0
  Host.scatter scatter_S1048576_S2048x1_S2048_n_0_0_1 IntOp.addi zeros firstCol ones

/-- The number of the segment a row lies in: the marks summed cumulatively, less one. -/
def segNumber (mk : IVec S1048576 32) : IVec S1048576 32 :=
  let z5 : IVec S_ 32 := constantI S_ 32 0#32
  let z5' : IVec S_ 32 := broadcastInDim S_ ![] bcast_S_S_ z5
  let count : IVec S1048576 32 := Host.reduceWindow IntOp.addi ![1048576] ![1] ![1048575] ![0] mk z5' reduceWindows_S1048576_S1048576_w1048576s1p1048575_0 h_S_
  let o1 : IVec S_ 32 := constantI S_ 32 1#32
  let ones' : IVec S1048576 32 := broadcastInDim S1048576 ![] bcast_S_S1048576 o1
  subi count ones'

/-- A number wrapped by the table's length where negative, as a column. -/
def wrapCol (which : IVec S1048576 32) : IVec S1048576x1 32 :=
  let t0 : IVec S_ 32 := constantI S_ 32 0#32
  let t1 : IVec S1048576 32 := broadcastInDim S1048576 ![] bcast_S_S1048576 t0
  let tneg : IVec S1048576 1 := cmpi .slt which t1
  let t2 : IVec S_ 32 := constantI S_ 32 2048#32
  let t3 : IVec S1048576 32 := broadcastInDim S1048576 ![] bcast_S_S1048576 t2
  let twrap : IVec S1048576 32 := addi which t3
  let tidx : IVec S1048576 32 := select tneg twrap which
  broadcastInDim S1048576x1 ![0] bcast_S1048576_S1048576x1_0 tidx

/-- Whether a column of numbers lies inside the table, row by row. -/
def insideTable (tcol : IVec S1048576x1 32) : IVec S1048576 1 :=
  let hi : IVec S1 32 := constantI S1 32 2047#32
  let t4 : IVec S_ 32 := constantI S_ 32 0#32
  let lo' : IVec S1048576x1 32 := broadcastInDim S1048576x1 ![] bcast_S_S1048576x1 t4
  let ge : IVec S1048576x1 1 := cmpi .sge tcol lo'
  let hi1 : IVec S1x1 32 := broadcastInDim S1x1 ![1] bcast_S1_S1x1_1 hi
  let hi' : IVec S1048576x1 32 := broadcastInDim S1048576x1 ![0, 1] bcast_S1x1_S1048576x1_0_1 hi1
  let le : IVec S1048576x1 1 := cmpi .sle tcol hi'
  let inside : IVec S1048576x1 1 := andi ge le
  let tt : IVec S_ 1 := constantI S_ 1 1#1
  Host.reduce IntOp.andi inside tt reducesTo_S1048576x1_S1048576_d1 h_S_

/-- The entry of a table `seg` at a column of numbers, a sentinel where the number falls outside. -/
def lookUp (seg : IVec S2048 32) (tcol : IVec S1048576x1 32) : IVec S1048576 32 :=
  let taken : IVec S1048576 32 := Host.gather gather_S2048_S1048576x1_S1048576_n_0_n_n_0_1_1 seg tcol
  let s0 : IVec S_ 32 := constantI S_ 32 2147483648#32
  let sent : IVec S1048576 32 := broadcastInDim S1048576 ![] bcast_S_S1048576 s0
  select (insideTable tcol) taken sent

/-- The index into the table of lengths that each row reads, as a column [1048576, 1]. -/
def rowSeg (num : IVec S2048 32) : IVec S1048576x1 32 :=
  wrapCol (lookUp (iotaInDim S2048 32 0) (wrapCol (segNumber (marks (firstRow num)))))

/-- The length of the segment each row lies in: the table read at the row's index. -/
def rowLen (num : IVec S2048 32) : IVec S1048576 32 :=
  Host.gather gather_S2048_S1048576x1_S1048576_n_0_n_n_0_1_1 num (rowSeg num)

/-- A row's length is an entry of the table: a table without a zero gives no zero length. -/
theorem rowLen_ne_zero (num : IVec S2048 32) (h : ∀ j, num j ≠ 0#32) (n : S1048576.Idx) : rowLen num n ≠ 0#32 := by
  unfold rowLen Host.gather
  exact h _

end Cert.KernelIdeal.Seg

end
-- ==== Proof.LibConcatPair.lean ====
/-
  Rewriting inside a two-piece concatenation.

  A concatenation carries a proof that its pieces' shapes fit the result; that proof mentions the list of pieces, so a
  rewrite of a piece has to carry it along. For two pieces the proof's statement only reads the pieces' SHAPES, which
  a rewrite of their contents leaves alone: equal pieces give equal concatenations under one and the same proof.
-/
import Idealize.ShloMosaic.PureOps

namespace Cert.LibConcatPair

open Idealize.ShloMosaic

/-- A two-piece concatenation depends on its pieces' contents only through their values. -/
theorem concatenate_pair_congr {α : Type} {t s1 s2 : Shape} (ax : Fin t.rank) {a a' : s1.Idx → α} {b b' : s2.Idx → α}
    (h : Shape.Concatenates ([(⟨s1, a⟩ : (s : Shape) × (s.Idx → α)), ⟨s2, b⟩].map (·.1)) t ax) (ha : a = a') (hb : b = b') :
    concatenate t ax [⟨s1, a⟩, ⟨s2, b⟩] h = concatenate t ax [⟨s1, a'⟩, ⟨s2, b'⟩] h := by
  subst ha hb; rfl

end Cert.LibConcatPair
-- ==== Proof.LibAfterAppend.lean ====
/-
  A line of host operations run in two parts.

  The buffer contents after a line of operations is a fold over the line; after a line made of two parts it is the fold
  over the second part of the fold over the first. So a long line can be read part by part, each part from ANY contents.
-/
import Idealize.ShloMosaic.Lib.StableHlo.Run

namespace Cert.LibAfterAppend

open Idealize.ShloMosaic Idealize.ShloMosaic.StableHlo

/-- The contents after two parts run one after the other. -/
theorem after_append {τ : Topo} {sig : RefSig} {Val : EltTy → Type} (A B : List (HloOp τ sig Val)) (V : Valuation τ sig Val) :
    after (A ++ B) V = after B (after A V) := by
  induction A generalizing V with
  | nil => rfl
  | cons op A ih => exact ih _

end Cert.LibAfterAppend
-- ==== Proof.KernelPrefix.lean ====
/-
  What the region finds in the array of reciprocal lengths.

  Before the kernel is launched the host has turned the table of lengths into each row's length, converted it to a
  float, divided one by it, and re-laid the 1048576 reciprocals as [8192, 128]. The host's line is read in three parts,
  each from any contents: up to the number of the segment each row lies in; the look-up of that number; the rest.
-/
import proofs.«135408_j61280593379514_2_alg».proof.Proof.Gen.KernelIdeal.Frame
import proofs.«135408_j61280593379514_2_alg».proof.Proof.SegLen
import proofs.«135408_j61280593379514_2_alg».proof.Proof.LibConcatPair
import proofs.«135408_j61280593379514_2_alg».proof.Proof.LibAfterAppend
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.SL.Sem Idealize.ShloMosaic.StableHlo

attribute [local congr] Cert.LibConcatPair.concatenate_pair_congr

/-- One over each row's length, as the host computes it: the constant one spread over the rows, divided by the lengths. -/
def recipLen (num : IVec S2048 32) : FVec Ideal S1048576 .f32 :=
  Host.divf (broadcastInDim S1048576 ![] Facts₀.bcast_S_S1048576 (constant (F := Ideal) S_ .f32 0x3F800000#32)) (sitofp .f32 (Seg.rowLen num))

/-- The first part of the host's line: up to the number of the segment each row lies in. -/
abbrev partA : List (HloOp τ sig (Elt Ideal)) :=
  hostOps0 ++ (hostOps0_1 ++ (hostOps0_2 ++ (hostOps0_3 ++ (hostOps0_4 ++ (hostOps0_5 ++ hostOps0_6)))))

section Parts
variable (W : Valuation τ sig (Elt Ideal))

set_option maxRecDepth 100000 in
theorem partA_num : after partA W (main_v16 : DevRef τ sig)
    = Seg.segNumber (Seg.marks (Seg.firstRow (W (main_arg2 : DevRef τ sig)))) := by
  simp only [partA, hostOps0, hostOps0_1, hostOps0_2, hostOps0_3, hostOps0_4, hostOps0_5, hostOps0_6, List.cons_append, List.nil_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq]
  rfl

set_option maxRecDepth 100000 in
theorem partA_iota : after partA W (main_v0 : DevRef τ sig) = iotaInDim S2048 32 0 := by
  simp only [partA, hostOps0, hostOps0_1, hostOps0_2, hostOps0_3, hostOps0_4, hostOps0_5, hostOps0_6, List.cons_append, List.nil_append]
  after_results_simp

set_option maxRecDepth 100000 in
theorem partA_table : after partA W (main_arg2 : DevRef τ sig) = W (main_arg2 : DevRef τ sig) := by
  simp only [partA, hostOps0, hostOps0_1, hostOps0_2, hostOps0_3, hostOps0_4, hostOps0_5, hostOps0_6, List.cons_append, List.nil_append]
  after_results_simp

set_option maxRecDepth 100000 in
theorem partB_seg : after hostOps0_7 W (main_v17 : DevRef τ sig)
    = Seg.lookUp (W (main_v0 : DevRef τ sig)) (Seg.wrapCol (W (main_v16 : DevRef τ sig))) := by
  simp only [hostOps0_7]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq]
  rfl

set_option maxRecDepth 100000 in
theorem partB_table : after hostOps0_7 W (main_arg2 : DevRef τ sig) = W (main_arg2 : DevRef τ sig) := by
  simp only [hostOps0_7]
  after_results_simp

set_option maxRecDepth 100000 in
theorem partC_recip : (after hostOps0_8 W (main_v28 : DevRef τ sig) : S8192x128.Idx → EReal)
    = shapeCast S8192x128 (Host.divf (broadcastInDim S1048576 ![] Facts₀.bcast_S_S1048576 (constant (F := Ideal) S_ .f32 0x3F800000#32))
        (sitofp .f32 (Host.gather gather_S2048_S1048576x1_S1048576_n_0_n_n_0_1_1 (W (main_arg2 : DevRef τ sig)) (Seg.wrapCol (W (main_v17 : DevRef τ sig))))))
        Facts₀.shapeCasts_S1048576_S8192x128 := by
  simp only [hostOps0_8]
  after_results_simp
  rfl

end Parts

variable (m : (ℓ : Loc nD τ sig) → Buf (Elt Ideal) ℓ)

/-- The array of reciprocal lengths as the region finds it: `recipLen` of the table as launched, re-laid as [8192, 128]. -/
theorem V_recip (c : Dev nD) :
    (V m c main_v28 : S8192x128.Idx → EReal)
      = shapeCast S8192x128 (recipLen (m ((c : Thread nD τ).loc main_arg2))) Facts₀.shapeCasts_S1048576_S8192x128 := by
  have hsplit : List.flatten [hostOps0, hostOps0_1, hostOps0_2, hostOps0_3, hostOps0_4, hostOps0_5, hostOps0_6, hostOps0_7, hostOps0_8]
      = (partA ++ (hostOps0_7 ++ hostOps0_8) : List (HloOp τ sig (Elt Ideal))) := by
    simp only [List.flatten_cons, List.flatten_nil, List.append_nil, List.append_assoc, partA]
  show after (List.flatten [hostOps0, hostOps0_1, hostOps0_2, hostOps0_3, hostOps0_4, hostOps0_5, hostOps0_6, hostOps0_7, hostOps0_8])
    (fun b => m (c, b)) (main_v28 : DevRef τ sig) = _
  rw [hsplit, Cert.LibAfterAppend.after_append, Cert.LibAfterAppend.after_append, partC_recip, partB_seg, partB_table,
    partA_num, partA_iota, partA_table]
  rfl

end Cert.KernelIdeal.Prefix

end
-- ==== Proof.LibLaneSum.lean ====
/-
  A sum along the rows of a matrix, read at a row.

  Reducing an [a, b] matrix along its second axis with the additive accumulator at zero gives, at the ideal values, the
  vector whose entry p is the sum over the b columns of the matrix's row p: the source index over result entry p with
  coordinate k on the dropped axis is (p, k).
-/
import Idealize.ShloMosaic.PureOps.Ideal.Laws
import Idealize.ShloMosaic.Lib.ValueIdx

noncomputable section

namespace Cert.LibLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- An additive reduction of an `[a, b]` matrix along its second axis from the zero word, read at row `p`. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.KernelBlock.lean ====
/-
  The array the kernel leaves.

  Grid point t stages rows 8192·t … 8192·t + 8191 of the two embedding arrays and block row t (64 × 128) of the array of
  reciprocal lengths. The body takes, for each of the 8192 rows, the sum over the row's 128 columns of the squared
  difference, lays those sums out as 64 × 128 (row r of the tile at (r / 128, r mod 128)), takes roots, and multiplies by
  the staged reciprocals. Entry (a, b) of the whole output [8192, 128] therefore holds the product for row 128·a + b:
  the output is the vector of the 1048576 rows' products re-laid as [8192, 128], and the 128 points' blocks tile it.
-/
import proofs.«135408_j61280593379514_2_alg».proof.Proof.Gen.KernelIdeal.Frame
import proofs.«135408_j61280593379514_2_alg».proof.Proof.KernelPrefix
import proofs.«135408_j61280593379514_2_alg».proof.Proof.LibLaneSum
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The specification -/

/-- What row `n` contributes: the root of its squared distance times its weight. -/
def rowProdAt (X Y : S1048576x128.Idx → EReal) (w : S1048576.Idx → EReal) (n : Fin 1048576) : EReal :=
  Ideal.sqrt (∑ k : Fin 128, (X (ix2 n k) - Y (ix2 n k)) * (X (ix2 n k) - Y (ix2 n k))) * w (ix1 n)

/-- The rows' products as a vector. -/
def rowProd (X Y : S1048576x128.Idx → EReal) (w : S1048576.Idx → EReal) : S1048576.Idx → EReal :=
  fun i => rowProdAt X Y w (i 0)

/-- The output array: the rows' products re-laid as [8192, 128]. -/
def outArr (X Y : S1048576x128.Idx → EReal) (w : S1048576.Idx → EReal) : S8192x128.Idx → EReal :=
  shapeCast S8192x128 (rowProd X Y w) Facts₀.shapeCasts_S1048576_S8192x128

/-- Entry `i` of the output array is the product of the row with `i`'s row-major position. -/
theorem outArr_apply (X Y : S1048576x128.Idx → EReal) (w : S1048576.Idx → EReal) (i : S8192x128.Idx) (n : Fin 1048576)
    (hn : n.val = (i 0).val * 128 + (i 1).val) : outArr X Y w i = rowProdAt X Y w n := by
  unfold outArr
  rw [shapeCast_apply (rowProd X Y w) Facts₀.shapeCasts_S1048576_S8192x128 i (ix1 n)
    (by rw [Shape.rowMajor_val_one, Shape.rowMajor_val_two]; exact hn)]
  rfl

/-! ## The body's value at an entry of the tile -/

/-- Entry (p, q) of the stored tile: the root of the sum over the columns of the squared difference of row 128·p + q of
    the two loaded blocks, times entry (p, q) of the third. -/
theorem pay_apply (x0 x1 : FVec Ideal S8192x128 .f32) (x2 : FVec Ideal S64x128 .f32) (p : Fin 64) (q : Fin 128)
    (r : Fin 8192) (hr : r.val = p.val * 128 + q.val) :
    k0_pay1 (F := Ideal) x0 x1 x2 (ix2 p q)
      = Ideal.sqrt (∑ k : Fin 128, (x0 (ix2 r k) - x1 (ix2 r k)) * (x0 (ix2 r k) - x1 (ix2 r k))) * x2 (ix2 p q) := by
  unfold k0_pay1
  show Ideal.sqrt (shapeCast S64x128 (multiReduction .add [1] S8192 (mulf (subf x0 x1) (subf x0 x1)) 0x00000000#32
      Facts₀.reduces_S8192x128_S8192 (.inl rfl) rfl) Facts₀.shapeCasts_S8192_S64x128 (ix2 p q))
    * shapeCast S64x128 x2 Facts₀.shapeCasts_S64x128_S64x128 (ix2 p q) = _
  rw [shapeCast_self]
  congr 2
  refine (shapeCast_apply _ Facts₀.shapeCasts_S8192_S64x128 (ix2 p q) (ix1 r)
    (by rw [Shape.rowMajor_val_one, Shape.rowMajor_val_two]; exact hr)).trans ?_
  exact Cert.LibLaneSum.lane_sum_apply (mulf (subf x0 x1) (subf x0 x1)) Facts₀.reduces_S8192x128_S8192 (.inl rfl) rfl r

/-! ## The blocks -/

theorem hz : (![0, 0] : Fin 2 → Nat) = fun _ => 0 := funext fun a => by fin_cases a <;> rfl

/-- The printed index maps over the grid: every window's block row at point `t` is `t`, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r`, column `k` of the first window's block at point `t` is row 8192·t + r of the first argument array. -/
theorem blk0_read (c : Dev nD) (t : Fin cfg0.N) (r : Fin 8192) (k : Fin 128) (n : Fin 1048576)
    (hn : n.val = t.val * 8192 + r.val) : iblk m c 0 t (ix2 r k) = V m c main_arg0 (ix2 n k) := by
  obtain ⟨e0, e1, -⟩ := idx_facts t
  show V m c main_arg0 (((cfg0.win 0).blk t).view.emb (ix2 r k)) = V m c main_arg0 (ix2 n k)
  refine congrArg _ (funext fun a => Fin.ext ?_)
  match a with
  | ⟨0, _⟩ => show win0_0.index t (0 : Fin 2) * 8192 + 1 * r.val = n.val; omega
  | ⟨1, _⟩ => show win0_0.index t (1 : Fin 2) * 128 + 1 * k.val = k.val; omega

/-- The same for the second window and the second argument array. -/
theorem blk1_read (c : Dev nD) (t : Fin cfg0.N) (r : Fin 8192) (k : Fin 128) (n : Fin 1048576)
    (hn : n.val = t.val * 8192 + r.val) : iblk m c 1 t (ix2 r k) = V m c main_arg1 (ix2 n k) := by
  obtain ⟨-, -, e0, e1, -⟩ := idx_facts t
  show V m c main_arg1 (((cfg0.win 1).blk t).view.emb (ix2 r k)) = V m c main_arg1 (ix2 n k)
  refine congrArg _ (funext fun a => Fin.ext ?_)
  match a with
  | ⟨0, _⟩ => show win0_1.index t (0 : Fin 2) * 8192 + 1 * r.val = n.val; omega
  | ⟨1, _⟩ => show win0_1.index t (1 : Fin 2) * 128 + 1 * k.val = k.val; omega

/-- Entry (p, q) of the third window's block at point `t` is the reciprocal length of row 8192·t + 128·p + q. -/
theorem blk2_read (c : Dev nD) (t : Fin cfg0.N) (p : Fin 64) (q : Fin 128) (n : Fin 1048576)
    (hn : n.val = t.val * 8192 + p.val * 128 + q.val) :
    iblk m c 2 t (ix2 p q) = Prefix.recipLen (m ((c : Thread nD τ).loc main_arg2)) (ix1 n) := by
  obtain ⟨-, -, -, -, e0, e1, -⟩ := idx_facts t
  show V m c main_v28 (((cfg0.win 2).blk t).view.emb (ix2 p q)) = _
  rw [Prefix.V_recip m c]
  refine shapeCast_apply _ Facts₀.shapeCasts_S1048576_S8192x128 _ (ix1 n) ?_
  rw [Shape.rowMajor_val_one, Shape.rowMajor_val_two]
  show n.val = (win0_2.index t (0 : Fin 2) * 64 + 1 * p.val) * 128 + (win0_2.index t (1 : Fin 2) * 128 + 1 * q.val)
  omega

/-- WHAT POINT `t` WRITES BACK is block `t` of the output array. -/
theorem flushed_eq (c : Dev nD) (t : Fin cfg0.N) :
    (dats m 0 c).flushed 3 t = ((cfg0.win 3).blk t).view.read (Elt Ideal)
      (outArr (V m c main_arg0) (V m c main_arg1) (Prefix.recipLen (m ((c : Thread nD τ).loc main_arg2)))) := by
  show (cfg0.win 3).cut (grid0.coords t) ((dats m 0 c).after 3 t) = _
  rw [after0_3]
  unfold out0_3
  rw [View.canon_unit_zero hz]
  simp only [View.ld_unit_zero (S := S8192x128) hz, View.ld_unit_zero (S := S64x128) hz]
  obtain ⟨-, -, -, -, -, -, e0, e1⟩ := idx_facts t
  have hN : cfg0.N = 128 := N_0
  have ht : t.val < 128 := by have := t.isLt; omega
  funext j
  obtain ⟨p, q, rfl⟩ : ∃ (p : Fin 64) (q : Fin 128), j = ix2 p q := ⟨j 0, j 1, eq_ix2 j⟩
  have hp : p.val < 64 := p.isLt
  have hq : q.val < 128 := q.isLt
  show k0_pay1 (iblk m c 0 t) (iblk m c 1 t) (iblk m c 2 t) (ix2 p q)
    = outArr (V m c main_arg0) (V m c main_arg1) (Prefix.recipLen (m ((c : Thread nD τ).loc main_arg2)))
        (((cfg0.win 3).blk t).view.emb (ix2 p q))
  refine (pay_apply _ _ _ p q ⟨p.val * 128 + q.val, by omega⟩ rfl).trans (Eq.symm ?_)
  refine (outArr_apply _ _ _ _ ⟨t.val * 8192 + p.val * 128 + q.val, by omega⟩ ?_).trans ?_
  · show t.val * 8192 + p.val * 128 + q.val
      = (win0_3.index t (0 : Fin 2) * 64 + 1 * p.val) * 128 + (win0_3.index t (1 : Fin 2) * 128 + 1 * q.val)
    omega
  · unfold rowProdAt
    have hr : (⟨t.val * 8192 + p.val * 128 + q.val, by omega⟩ : Fin 1048576).val
        = t.val * 8192 + (⟨p.val * 128 + q.val, by omega⟩ : Fin 8192).val := by
      show t.val * 8192 + p.val * 128 + q.val = t.val * 8192 + (p.val * 128 + q.val); omega
    refine congrArg₂ (fun a b : EReal => a * b) (congrArg Ideal.sqrt (Finset.sum_congr rfl fun k _ => ?_))
      (blk2_read m c t p q ⟨t.val * 8192 + p.val * 128 + q.val, by omega⟩ rfl).symm
    exact congrArg₂ (fun a b : EReal => (a - b) * (a - b))
      (blk0_read m c t ⟨p.val * 128 + q.val, by omega⟩ k ⟨t.val * 8192 + p.val * 128 + q.val, by omega⟩ hr).symm
      (blk1_read m c t ⟨p.val * 128 + q.val, by omega⟩ k ⟨t.val * 8192 + p.val * 128 + q.val, by omega⟩ hr).symm

/-- An index of the output array is in point `t`'s block iff each coordinate is in the block's range on its axis. -/
theorem mem_blk (t : Fin cfg0.N) (i : S8192x128.Idx) :
    i ∈ ((cfg0.win 3).blk t).view.set ↔ ∀ a : Fin 2, win0_3.index t a * S64x128.size a ≤ (i a).val ∧ (i a).val < win0_3.index t a * S64x128.size a + S64x128.size a := by
  show i ∈ ((View.whole main_v29).slice (win0_3.rect t)).set ↔ _
  rw [View.set_slice_whole, Rect.mem_set_unit]
  exact Iff.rfl

/-- The blocks tile the output array: entry (a, b) lies in the block of point a / 64. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 128 := N_0
  refine ⟨⟨(i 0).val / 64, by omega⟩, flush0_3 _, ?_⟩
  rw [mem_blk]
  obtain ⟨-, -, -, -, -, -, e0, e1⟩ := idx_facts ⟨(i 0).val / 64, by omega⟩
  intro a
  match a with
  | ⟨0, _⟩ => show win0_3.index ⟨(i 0).val / 64, _⟩ (0 : Fin 2) * 64 ≤ (i 0).val ∧ (i 0).val < win0_3.index ⟨(i 0).val / 64, _⟩ (0 : Fin 2) * 64 + 64; simp only [e0]; omega
  | ⟨1, _⟩ => show win0_3.index ⟨(i 0).val / 64, _⟩ (1 : Fin 2) * 128 ≤ (i 1).val ∧ (i 1).val < win0_3.index ⟨(i 0).val / 64, _⟩ (1 : Fin 2) * 128 + 128; simp only [e1]; omega

/-- THE OUTPUT ARRAY after the run. -/
theorem final (c : Dev nD) : (dats m 0 c).arrAt 3 cfg0.N
    = outArr (V m c main_arg0) (V m c main_arg1) (Prefix.recipLen (m ((c : Thread nD τ).loc main_arg2))) :=
  (dats m 0 c).arrAt_eq_of_cover 3 _ (fun t _ => flushed_eq m c t) cover

end Cert.KernelIdeal.Block

end
-- ==== Proof.KernelValue.lean ====
/-
  The kernel program's result as a function of its arguments.

  After the region the host sums the output array [8192, 128] from zero. Read back from the run, the program's one
  result is that total of the array the kernel leaves; the argument arrays end as launched.
-/
import proofs.«135408_j61280593379514_2_alg».proof.Proof.Gen.KernelIdeal.Frame
import proofs.«135408_j61280593379514_2_alg».proof.Proof.KernelBlock
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The kernel program's result: the rows' products with the reciprocal lengths, laid out as [8192, 128], totalled from zero. -/
def total (X Y : FVec Ideal S1048576x128 .f32) (num : IVec S2048 32) : FVec Ideal S_ .f32 :=
  Host.reduceAdd (Block.outArr X Y (Prefix.recipLen num)) (constant (F := Ideal) S_ .f32 0x00000000#32)
    Facts₀.reducesTo_S8192x128_S_d0_1 Facts₀.h_S_

/-- What the lines after the region leave in the result buffer. -/
theorem tail_eq (c : Dev nD) :
    Pipeline.afterTail₀ cfgs (dats m) 0 (V0 m) [hostOps1] c main_v30
      = total (m ((c : Thread nD τ).loc main_arg0)) (m ((c : Thread nD τ).loc main_arg1)) (m ((c : Thread nD τ).loc main_arg2)) := by
  have hv := (Pipeline.withArrays_arr spec0 launch0.win.arr_inj c (V0 m c) (fun w => (dats m 0 c).arrAt w cfg0.N) 3).trans (Block.final m c)
  rw [V_main_arg0, V_main_arg1] at hv
  unfold Pipeline.afterTail₀
  show StableHlo.after hostOps1 _ (Proc.devRef .tc main_v30) = _
  after_results
  unfold total
  exact congrArg (fun a => Host.reduceAdd (F := Ideal) a (constant (F := Ideal) S_ .f32 0x00000000#32) Facts₀.reducesTo_S8192x128_S_d0_1 Facts₀.h_S_) hv

/-- The kernel program's run with its result named: every weakly fair execution terminates with the result at
    `total` of the arguments as launched and the arguments unchanged. -/
theorem run : θ_run defs (onTc (τ := τ) (main (F := Ideal))) ⟨m, fun _ => 0, ρ⟩ fun r => ∀ c : Dev nD,
      r.2.mem ((c.tc : Thread nD τ).loc main_v30)
        = total (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v30 (Pipeline.mem_restRefs_of main_v30 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.KValue

end
-- ==== Proof.RefRun.lean ====
/-
  The reference program's run.

  The reference's @main is a straight line of host operations once the four functions it calls (the roll, the two
  cumulative sums, the table look-up) are read at their call sites: the list below, in order. Every weakly fair
  execution of it terminates, and each buffer ends at the fold of those operations over the launch contents.
-/
import proofs.«135408_j61280593379514_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The rows' distances: the difference, its square, the sum along each row from zero, the root. -/
abbrev opsD : List (HloOp τ sig (Elt F)) :=
  [ binary main_arg0 main_arg1 main_v0 subf,
    binary main_v0 main_v0 main_v1 mulf,
    nullary main_cst (constant S_ .f32 0x00000000#32),
    binary main_v1 main_cst main_v2 (fun x v => Host.reduceAdd x v reducesTo_S1048576x128_S1048576_d1 h_S_),
    unary main_v2 main_v3 Host.sqrt ]

/-- From the table of lengths to the number of the segment each row lies in (the roll and the two cumulative sums read at their call sites). -/
abbrev opsA : List (HloOp τ sig (Elt F)) :=
  [ nullary main_v4 (iotaInDim S2048 32 0),
    TRef.unary (.of main_arg2 : TRef sig ⟨S2048, .i32⟩) main_call0.v0 (extractStridedSlice S1 ![2047] · slices_S2048_S1_2047),
    TRef.unary (.of main_arg2 : TRef sig ⟨S2048, .i32⟩) main_call0.v1 (extractStridedSlice S2047 ![0] · slices_S2048_S2047_0),
    TRef.binary main_call0.v0 main_call0.v1 main_call0.v2 (fun a b => concatenate S2048 0 [⟨S1, a⟩, ⟨S2047, b⟩] concatenates_S1_S2047_S2048_d0),
    nullary main_c (constantI S_ 32 0#32),
    unary main_c main_v6 (broadcastInDim S1 ![] bcast_S_S1),
    nullary main_c_0 (constantI S_ 32 0#32),
    ternary main_v5 main_v6 main_c_0 main_v7 (fun x i u => Host.scatter scatter_S2048_S1_S__n_0_0_0 (fun _ b => b) x i u),
    TRef.nullary main_call1.call0.c (constantI S_ 32 0#32),
    TRef.unary main_call1.call0.c main_call1.call0.v0 (broadcastInDim S_ ![] bcast_S_S_),
    TRef.binary (.of main_v7 : TRef sig ⟨S2048, .i32⟩) main_call1.call0.v0 main_call1.call0.v1 (fun x v => Host.reduceWindow IntOp.addi ![2048] ![1] ![2047] ![0] x v reduceWindows_S2048_S2048_w2048s1p2047_0 h_S_),
    nullary main_c_1 (constantI S_ 32 0#32),
    unary main_c_1 main_v9 (broadcastInDim S1048576 ![] bcast_S_S1048576),
    nullary main_c_2 (constantI S_ 32 0#32),
    unary main_c_2 main_v10 (broadcastInDim S2048 ![] bcast_S_S2048),
    binary main_v8 main_v10 main_v11 (cmpi .slt),
    nullary main_c_3 (constantI S_ 32 1048576#32),
    unary main_c_3 main_v12 (broadcastInDim S2048 ![] bcast_S_S2048),
    binary main_v8 main_v12 main_v13 addi,
    ternary main_v11 main_v13 main_v8 main_v14 select,
    unary main_v14 main_v15 (broadcastInDim S2048x1 ![0] bcast_S2048_S2048x1_0),
    nullary main_c_4 (constantI S_ 32 1#32),
    unary main_c_4 main_v16 (broadcastInDim S2048 ![] bcast_S_S2048),
    ternary main_v9 main_v15 main_v16 main_v17 (fun x i u => Host.scatter scatter_S1048576_S2048x1_S2048_n_0_0_1 IntOp.addi x i u),
    TRef.nullary main_call2.call0.c (constantI S_ 32 0#32),
    TRef.unary main_call2.call0.c main_call2.call0.v0 (broadcastInDim S_ ![] bcast_S_S_),
    TRef.binary (.of main_v17 : TRef sig ⟨S1048576, .i32⟩) main_call2.call0.v0 main_call2.call0.v1 (fun x v => Host.reduceWindow IntOp.addi ![1048576] ![1] ![1048575] ![0] x v reduceWindows_S1048576_S1048576_w1048576s1p1048575_0 h_S_),
    nullary main_c_5 (constantI S_ 32 1#32),
    unary main_c_5 main_v19 (broadcastInDim S1048576 ![] bcast_S_S1048576),
    binary main_v18 main_v19 main_v20 subi ]

/-- The look-up of that number in 0, 1, ..., 2047 (the called function's operations). -/
abbrev opsB : List (HloOp τ sig (Elt F)) :=
  [ TRef.nullary main_call3.c (constantI S_ 32 0#32),
    TRef.unary main_call3.c main_call3.v0 (broadcastInDim S1048576 ![] bcast_S_S1048576),
    TRef.binary (.of main_v20 : TRef sig ⟨S1048576, .i32⟩) main_call3.v0 main_call3.v1 (cmpi .slt),
    TRef.nullary main_call3.c_0 (constantI S_ 32 2048#32),
    TRef.unary main_call3.c_0 main_call3.v2 (broadcastInDim S1048576 ![] bcast_S_S1048576),
    TRef.binary (.of main_v20 : TRef sig ⟨S1048576, .i32⟩) main_call3.v2 main_call3.v3 addi,
    TRef.ternary main_call3.v1 main_call3.v3 (.of main_v20 : TRef sig ⟨S1048576, .i32⟩) main_call3.call0.v0 select,
    TRef.unary main_call3.call0.v0 main_call3.v5 (broadcastInDim S1048576x1 ![0] bcast_S1048576_S1048576x1_0),
    TRef.nullary main_call3.c_1 (constantI S1 32 2047#32),
    TRef.nullary main_call3.c_2 (constantI S_ 32 0#32),
    TRef.unary main_call3.c_2 main_call3.v6 (broadcastInDim S1048576x1 ![] bcast_S_S1048576x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S1048576x1 ![0, 1] bcast_S1x1_S1048576x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S1048576x1_S1048576_d1 h_S_),
    TRef.binary (.of main_v4 : TRef sig ⟨S2048, .i32⟩) main_call3.v5 main_call3.v13 (fun x i => Host.gather gather_S2048_S1048576x1_S1048576_n_0_n_n_0_1_1 x i),
    TRef.nullary main_call3.c_4 (constantI S_ 32 2147483648#32),
    TRef.unary main_call3.c_4 main_call3.v14 (broadcastInDim S1048576 ![] bcast_S_S1048576),
    TRef.ternary main_call3.v12 main_call3.v13 main_call3.v14 main_call3.v15 select ]

/-- The row's length read from the table, the quotient, the total. -/
abbrev opsC : List (HloOp τ sig (Elt F)) :=
  [ nullary main_c_6 (constantI S_ 32 0#32),
    unary main_c_6 main_v22 (broadcastInDim S1048576 ![] bcast_S_S1048576),
    binary main_v21 main_v22 main_v23 (cmpi .slt),
    nullary main_c_7 (constantI S_ 32 2048#32),
    unary main_c_7 main_v24 (broadcastInDim S1048576 ![] bcast_S_S1048576),
    binary main_v21 main_v24 main_v25 addi,
    ternary main_v23 main_v25 main_v21 main_v26 select,
    unary main_v26 main_v27 (broadcastInDim S1048576x1 ![0] bcast_S1048576_S1048576x1_0),
    binary main_arg2 main_v27 main_v28 (fun x i => Host.gather gather_S2048_S1048576x1_S1048576_n_0_n_n_0_1_1 x i),
    unary main_v28 main_v29 (sitofp .f32),
    binary main_v3 main_v29 main_v30 Host.divf,
    nullary main_cst_8 (constant S_ .f32 0x00000000#32),
    binary main_v30 main_cst_8 main_v31 (fun x v => Host.reduceAdd x v reducesTo_S1048576_S_d0 h_S_) ]

/-- @main's operations with the called functions' operations at their call sites, in order. -/
abbrev ops : List (HloOp τ sig (Elt F)) := opsD ++ (opsA ++ (opsB ++ opsC))

-- seventy binds re-associated under one chain
set_option maxRecDepth 4096 in
/-- @main is that straight line: the called functions' bodies unfolded at their calls, the sequencing reassociated. -/
theorem main_eq (c : Dev nD) : main (F := F) c = seq ops := by
  simp only [main, fn_roll_static.body, fn_cumsum.body, fn_cumsum_0.body, fn_cumsum_1.body, fn_cumsum_2.body,
    fn_where.body, fn_take.body, ops, opsD, opsA, opsB, opsC, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsD_sub : (opsD : List (HloOp τ sig (Elt F))).Forall fun op => op.bufs ⊆ tcRefs τ sig :=
  ⟨binary_bufs_sub .., binary_bufs_sub .., nullary_bufs_sub .., binary_bufs_sub .., unary_bufs_sub ..⟩
theorem opsA_sub : (opsA : List (HloOp τ sig (Elt F))).Forall fun op => op.bufs ⊆ tcRefs τ sig :=
  ⟨nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub ..⟩

theorem ops_sub : (ops : List (HloOp τ sig (Elt F))).Forall fun op => op.bufs ⊆ tcRefs τ sig := by
  rw [List.forall_iff_forall_mem]
  intro op hop
  simp only [ops, List.mem_append] at hop
  rcases hop with h | h | h | h
  · exact (List.forall_iff_forall_mem.mp opsD_sub) op h
  · exact (List.forall_iff_forall_mem.mp opsA_sub) op h
  · exact (List.forall_iff_forall_mem.mp opsB_sub) op h
  · exact (List.forall_iff_forall_mem.mp opsC_sub) op h

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as a function of its arguments.

  Read back from the run, the reference's one result is the total, from zero, over the rows of: the root of the row's
  squared distance (itself a sum from zero over the row's 128 columns) divided by the row's segment length converted to
  a float. The chain from the table of lengths to a row's length is the one both programs share. The line is read in
  its four parts, each from any contents.
-/
import proofs.«135408_j61280593379514_2_alg».proof.Proof.RefRun
import proofs.«135408_j61280593379514_2_alg».proof.Proof.SegLen
import proofs.«135408_j61280593379514_2_alg».proof.Proof.LibConcatPair
import proofs.«135408_j61280593379514_2_alg».proof.Proof.LibAfterAppend
import Idealize.ShloMosaic.PureOps.Ideal

noncomputable section

namespace Cert.ReferenceIdeal.RefValue

open Cert.ReferenceIdeal Cert.ReferenceIdeal.RefRun Idealize.ShloMosaic Idealize.ShloMosaic.TcCoe Idealize.SL.Sem Idealize.ShloMosaic.StableHlo
open Cert.KernelIdeal (Seg.firstRow Seg.marks Seg.segNumber Seg.wrapCol Seg.lookUp Seg.rowSeg Seg.rowLen)

attribute [local congr] Cert.LibConcatPair.concatenate_pair_congr

/-- The root of each row's squared distance, as the reference computes it. -/
def rowDist (X Y : FVec Ideal S1048576x128 .f32) : FVec Ideal S1048576 .f32 :=
  Host.sqrt (Host.reduceAdd (mulf (subf X Y) (subf X Y)) (constant (F := Ideal) S_ .f32 0x00000000#32)
    Facts₀.reducesTo_S1048576x128_S1048576_d1 Facts₀.h_S_)

/-- The reference's result: the distances divided by the rows' lengths, totalled from zero. -/
def total (X Y : FVec Ideal S1048576x128 .f32) (num : IVec S2048 32) : FVec Ideal S_ .f32 :=
  Host.reduceAdd (Host.divf (rowDist X Y) (sitofp .f32 (Cert.KernelIdeal.Seg.rowLen num)))
    (constant (F := Ideal) S_ .f32 0x00000000#32) Facts₀.reducesTo_S1048576_S_d0 Facts₀.h_S_

section Parts
variable (W : Valuation τ sig (Elt Ideal))

set_option maxRecDepth 100000 in
theorem partD_dist : after opsD W (main_v3 : DevRef τ sig) = rowDist (W (main_arg0 : DevRef τ sig)) (W (main_arg1 : DevRef τ sig)) := by
  simp only [opsD]
  after_results_simp
  rfl
set_option maxRecDepth 100000 in
theorem partD_table : after opsD W (main_arg2 : DevRef τ sig) = W (main_arg2 : DevRef τ sig) := by
  simp only [opsD]
  after_results_simp

set_option maxRecDepth 100000 in
theorem partA_num : after opsA W (main_v20 : DevRef τ sig)
    = Cert.KernelIdeal.Seg.segNumber (Cert.KernelIdeal.Seg.marks (Cert.KernelIdeal.Seg.firstRow (W (main_arg2 : DevRef τ sig)))) := by
  simp only [opsA]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq]
  rfl
set_option maxRecDepth 100000 in
theorem partA_iota : after opsA W (main_v4 : DevRef τ sig) = iotaInDim S2048 32 0 := by
  simp only [opsA]
  after_results_simp
set_option maxRecDepth 100000 in
theorem partA_table : after opsA W (main_arg2 : DevRef τ sig) = W (main_arg2 : DevRef τ sig) := by
  simp only [opsA]
  after_results_simp
set_option maxRecDepth 100000 in
theorem partA_dist : after opsA W (main_v3 : DevRef τ sig) = W (main_v3 : DevRef τ sig) := by
  simp only [opsA]
  after_results_simp

set_option maxRecDepth 100000 in
theorem partB_seg : after opsB W (main_v21 : DevRef τ sig)
    = Cert.KernelIdeal.Seg.lookUp (W (main_v4 : DevRef τ sig)) (Cert.KernelIdeal.Seg.wrapCol (W (main_v20 : DevRef τ sig))) := by
  simp only [opsB]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq]
  rfl
set_option maxRecDepth 100000 in
theorem partB_table : after opsB W (main_arg2 : DevRef τ sig) = W (main_arg2 : DevRef τ sig) := by
  simp only [opsB]
  after_results_simp
set_option maxRecDepth 100000 in
theorem partB_dist : after opsB W (main_v3 : DevRef τ sig) = W (main_v3 : DevRef τ sig) := by
  simp only [opsB]
  after_results_simp

set_option maxRecDepth 100000 in
theorem partC_total : after opsC W (main_v31 : DevRef τ sig)
    = Host.reduceAdd (Host.divf (W (main_v3 : DevRef τ sig) : FVec Ideal S1048576 .f32)
        (sitofp .f32 (Host.gather gather_S2048_S1048576x1_S1048576_n_0_n_n_0_1_1 (W (main_arg2 : DevRef τ sig))
          (Cert.KernelIdeal.Seg.wrapCol (W (main_v21 : DevRef τ sig))))))
        (constant (F := Ideal) S_ .f32 0x00000000#32) Facts₀.reducesTo_S1048576_S_d0 Facts₀.h_S_ := by
  simp only [opsC]
  after_results_simp
  rfl

end Parts

/-- The fold of @main's operations at the result buffer is `total` of the arguments. -/
theorem out_eq (V : Valuation τ sig (Elt Ideal)) :
    after ops V (main_v31 : DevRef τ sig)
      = total (V (main_arg0 : DevRef τ sig)) (V (main_arg1 : DevRef τ sig)) (V (main_arg2 : DevRef τ sig)) := by
  rw [show (ops : List (HloOp τ sig (Elt Ideal))) = opsD ++ (opsA ++ (opsB ++ opsC)) from rfl,
    Cert.LibAfterAppend.after_append, Cert.LibAfterAppend.after_append, Cert.LibAfterAppend.after_append,
    partC_total, partB_seg, partB_table, partB_dist, partA_num, partA_iota, partA_table, partA_dist, partD_dist, partD_table]
  rfl

/-- No operation writes an argument. -/
theorem arg_kept (V : Valuation τ sig (Elt Ideal)) (b : Ref sig .tc) (hb : b = main_arg0 ∨ b = main_arg1 ∨ b = main_arg2) :
    after ops V (b : DevRef τ sig) = V (b : DevRef τ sig) :=
  after_of_forall_not_mem (b := Proc.devRef .tc b) _ _ (List.forall_iff_forall_mem.mp (by
    simp only [ops, opsD, opsA, opsB, opsC, List.cons_append, List.nil_append, List.Forall, TRef.nullary, TRef.unary, TRef.binary, TRef.ternary,
      nullary_writes, unary_writes, binary_writes, ternary_writes, Finset.mem_singleton]
    rcases hb with rfl | rfl | rfl
    all_goals (repeat' apply And.intro)
    all_goals exact devRef_ne_of_ne (by decide)))

/-- The reference's run with its result named: every weakly fair execution terminates with the result at `total` of the
    arguments as launched and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = total (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v31).trans (out_eq _), (h c main_arg0).trans (arg_kept _ _ (.inl rfl)),
      (h c main_arg1).trans (arg_kept _ _ (.inr (.inl rfl))), (h c main_arg2).trans (arg_kept _ _ (.inr (.inr rfl)))⟩)
    (run_main m ρ)

end Cert.ReferenceIdeal.RefValue

end
-- ==== Proof.LibShapeCastSum.lean ====
/-
  Sums through a re-laying.

  A shape cast lists the same elements in row-major order under another shape: it is precomposition with a bijection
  of the two index types. A sum over every index of the re-laid array, of any function of its entries, is therefore
  the sum over every index of the array itself; likewise for a function of two arrays re-laid the same way.
-/
import Idealize.ShloMosaic.PureOps.Ideal

namespace Cert.Splat
open Idealize.ShloMosaic

/-- The sum of `f` over a re-laid array's entries is the sum over the array's. -/
theorem sum_shapeCast {s t : Shape} {α M : Type} [AddCommMonoid M] (x : s.Idx → α) (h : s.ShapeCasts t) (f : α → M) :
    ∑ j : t.Idx, f (shapeCast t x h j) = ∑ i : s.Idx, f (x i) :=
  Equiv.sum_comp (Shape.reshapeEquiv h) (fun i => f (x i))

/-- The same for a function of two arrays re-laid alike. -/
theorem sum_shapeCast₂ {s t : Shape} {α β M : Type} [AddCommMonoid M] (x : s.Idx → α) (y : s.Idx → β)
    (h h' : s.ShapeCasts t) (f : α → β → M) :
    ∑ j : t.Idx, f (shapeCast t x h j) (shapeCast t y h' j) = ∑ i : s.Idx, f (x i) (y i) :=
  Equiv.sum_comp (Shape.reshapeEquiv h) (fun i => f (x i) (y i))

end Cert.Splat
-- ==== Proof.Spec.lean ====
/-
  The law that joins the two programs.

  The kernel multiplies each row's distance by the reciprocal of the row's segment length and sums the 1048576 products
  laid out as [8192, 128]; the reference divides each distance by the length and sums the quotients as one vector. On
  the extended reals a quotient by a NONZERO real is the product with its reciprocal, at an infinite dividend too; by
  zero it is not (0 / 0 is the bottom element while 0 · (1 / 0) = 0 · ⊤ = 0), which is why the lengths must not vanish.
  A sum does not depend on the layout of its terms.
-/
import Idealize.ShloMosaic.PureOps.Ideal
import proofs.«135408_j61280593379514_2_alg».proof.Proof.LibShapeCastSum

noncomputable section

namespace Cert.Loss

open Idealize.ShloMosaic

/-- A quotient by a nonzero real is the product with the reciprocal of that real, whatever the dividend. -/
theorem div_eq_mul_recip (x : EReal) {r : ℝ} (h : r ≠ 0) : Ideal.div x (r : EReal) = x * Ideal.div 1 (r : EReal) := by
  rw [Ideal.div_coe h, Ideal.div_coe h, one_mul]

/-- A nonzero 32-bit word, read as a signed integer and then as a real, is a nonzero real. -/
theorem toInt_real_ne_zero {b : BitVec 32} (h : b ≠ 0#32) : ((b.toInt : ℝ)) ≠ 0 := by
  intro h0
  have h1 : b.toInt = 0 := by exact_mod_cast h0
  exact h (BitVec.toInt_inj.mp (by simpa using h1))

/-- The two totals: products with reciprocal lengths summed under any layout, against quotients summed in a line. -/
theorem total_eq {s t : Shape} (sc : s.ShapeCasts t) (root : s.Idx → EReal) (len : s.Idx → BitVec 32)
    (hlen : ∀ n, len n ≠ 0#32) (init : EReal) :
    init + ∑ i : t.Idx, shapeCast t (fun n => root n * Ideal.div 1 (((len n).toInt : ℝ) : EReal)) sc i
      = init + ∑ n : s.Idx, Ideal.div (root n) (((len n).toInt : ℝ) : EReal) := by
  congr 1
  rw [Cert.Splat.sum_shapeCast (fun n => root n * Ideal.div 1 (((len n).toInt : ℝ) : EReal)) sc (fun v => v)]
  exact Finset.sum_congr rfl fun n _ => (div_eq_mul_recip (root n) (toInt_real_ne_zero (hlen n))).symm

end Cert.Loss

end
-- ==== Proof.LibHostLaneSum.lean ====
/-
  The host's sum along the rows of a matrix, read at a row.

  The host's add-reduction of an [a, b] matrix along its second axis, from an initial value that is zero, gives at the
  ideal values the vector whose entry p is the sum over the b columns of the matrix's row p — the same reading as a
  vector unit's reduction of the same matrix, whatever the extents.
-/
import Idealize.ShloMosaic.PureOps.Ideal.Laws
import Idealize.ShloMosaic.Lib.ValueIdx
import Idealize.ShloMosaic.Lib.IdealHost

noncomputable section

namespace Cert.LibHostLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The host's sum of an `[a, b]` matrix along its second axis from a zero initial value, read at row `p`. -/
theorem host_lane_sum_apply {a b : ℕ} {u : Shape} (src : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0) (p : Fin a) :
    Host.reduceAdd src init h' hu (ix1 p) = ∑ k : Fin b, src (ix2 p k) := by
  have hred : (⟨2, ![a, b]⟩ : Shape).Reduces [1] ⟨1, ![a]⟩ := ⟨h'.1, Nat.zero_lt_one, h'.2⟩
  rw [hostReduceAdd_apply, Ideal.hostReduceAdd_single h' hred, h0, zero_add]
  exact Finset.sum_congr rfl fun k _ => congrArg src (lift_row hred p k)

end Cert.LibHostLaneSum

end
-- ==== Proof.Bridge.lean ====
/-
  The two programs' results are one function of the arguments.

  Both results are totals from zero over the 1048576 rows: the kernel's of the products distance · (1 / length), laid
  out as [8192, 128]; the reference's of the quotients distance / length in a line. The distance of a row is the same
  on both sides (the root of the sum over the row's 128 columns of the squared difference; the reference adds it to a
  zero first); the length is a nonzero integer read as a real, so quotient and product agree; and the layout does not
  matter to a sum.
-/
import proofs.«135408_j61280593379514_2_alg».proof.Proof.KernelValue
import proofs.«135408_j61280593379514_2_alg».proof.Proof.RefValue
import proofs.«135408_j61280593379514_2_alg».proof.Proof.Spec
import proofs.«135408_j61280593379514_2_alg».proof.Proof.LibHostLaneSum
import Idealize.ShloMosaic.Lib.IdealHost
import Idealize.ShloMosaic.PureOps.Ideal.Laws

noncomputable section

namespace Cert.Loss

open Idealize.ShloMosaic Idealize.ShloMosaic.ValueIdx
open Cert.KernelIdeal (S1048576x128 S1048576 S8192x128 S2048 S_)

/-- The host's root of an array, read at an index. -/
theorem host_sqrt_apply {s : Shape} (x : FVec Ideal s .f32) (i : s.Idx) : Host.sqrt x i = Ideal.sqrt (x i) := rfl

/-- The reference's distance of row `p`: the root of the sum over the columns of the squared difference. -/
theorem rowDist_apply (X Y : FVec Ideal S1048576x128 .f32) (p : Fin 1048576) :
    Cert.ReferenceIdeal.RefValue.rowDist X Y (ix1 p)
      = Ideal.sqrt (∑ k : Fin 128, (X (ix2 p k) - Y (ix2 p k)) * (X (ix2 p k) - Y (ix2 p k))) := by
  have h := Cert.LibHostLaneSum.host_lane_sum_apply (mulf (subf X Y) (subf X Y)) (constant (F := Ideal) S_ .f32 0x00000000#32)
    Cert.ReferenceIdeal.Facts₀.reducesTo_S1048576x128_S1048576_d1 Cert.ReferenceIdeal.Facts₀.h_S_ Ideal.ofBits_zero_f32 p
  unfold Cert.ReferenceIdeal.RefValue.rowDist
  rw [host_sqrt_apply, h]
  refine congrArg Ideal.sqrt (Finset.sum_congr rfl fun k _ => ?_)
  rw [mulf_apply, subf_apply]

/-- The kernel's reciprocal length of row `p`: one over the row's length read as a real. -/
theorem recipLen_apply (num : IVec S2048 32) (p : Fin 1048576) :
    Cert.KernelIdeal.Prefix.recipLen num (ix1 p) = Ideal.div 1 (((Cert.KernelIdeal.Seg.rowLen num (ix1 p)).toInt : ℝ) : EReal) := by
  unfold Cert.KernelIdeal.Prefix.recipLen
  show Ideal.div (broadcastInDim S1048576 ![] Cert.KernelIdeal.Facts₀.bcast_S_S1048576 (constant (F := Ideal) S_ .f32 0x3F800000#32) (ix1 p))
    (((Cert.KernelIdeal.Seg.rowLen num (ix1 p)).toInt : ℝ) : EReal) = _
  rw [broadcastInDim_scalar_apply]
  show Ideal.div (Ideal.ofBits .f32 0x3F800000#32) _ = _
  rw [Ideal.ofBits_one_f32]

/-- THE TWO RESULTS AGREE when no entry of the table of lengths is zero. -/
theorem totals_eq (X Y : FVec Ideal S1048576x128 .f32) (num : IVec S2048 32) (hnum : ∀ j, num j ≠ 0#32) :
    Cert.KernelIdeal.KValue.total X Y num = Cert.ReferenceIdeal.RefValue.total X Y num := by
  funext i
  unfold Cert.KernelIdeal.KValue.total Cert.ReferenceIdeal.RefValue.total
  show Ideal.hostReduceAdd Cert.KernelIdeal.Facts₀.reducesTo_S8192x128_S_d0_1
      (Cert.KernelIdeal.Block.outArr X Y (Cert.KernelIdeal.Prefix.recipLen num)) (Ideal.ofBits .f32 0x00000000#32) i
    = Ideal.hostReduceAdd Cert.ReferenceIdeal.Facts₀.reducesTo_S1048576_S_d0
      (Host.divf (Cert.ReferenceIdeal.RefValue.rowDist X Y) (sitofp .f32 (Cert.KernelIdeal.Seg.rowLen num))) (Ideal.ofBits .f32 0x00000000#32) i
  rw [Ideal.hostReduceAdd_total _ (fun b => b.elim0), Ideal.hostReduceAdd_total _ (fun b => b.elim0)]
  refine Eq.trans ?_ (total_eq Cert.KernelIdeal.Facts₀.shapeCasts_S1048576_S8192x128 (Cert.ReferenceIdeal.RefValue.rowDist X Y)
    (Cert.KernelIdeal.Seg.rowLen num) (Cert.KernelIdeal.Seg.rowLen_ne_zero num hnum) (Ideal.ofBits .f32 0x00000000#32))
  refine congrArg (fun z : EReal => Ideal.ofBits .f32 0x00000000#32 + z) (Finset.sum_congr rfl fun j _ => ?_)
  unfold Cert.KernelIdeal.Block.outArr
  refine congrFun (congrArg (fun f => shapeCast S8192x128 f Cert.KernelIdeal.Facts₀.shapeCasts_S1048576_S8192x128) (funext fun n => ?_)) j
  obtain ⟨p, rfl⟩ : ∃ p : Fin 1048576, n = ix1 p := ⟨n 0, eq_ix1 n⟩
  show Cert.KernelIdeal.Block.rowProdAt X Y (Cert.KernelIdeal.Prefix.recipLen num) p = _
  unfold Cert.KernelIdeal.Block.rowProdAt
  rw [rowDist_apply, recipLen_apply]

end Cert.Loss

end
-- ==== Proof.PreDecode.lean ====
/-
  What the precondition says of the table of lengths.

  The precondition's last conjunct is an and-reduction, over the 2048 entries of the table, of "the entry differs from
  zero". If the whole precondition is all ones, so is that reduction, and then every entry differs from zero.
-/
import proofs.«135408_j61280593379514_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Cert.Pre_finite_inputs

/-- A rank-zero array has one index. -/
instance : Subsingleton S_.Idx := ⟨fun a b => funext fun d => d.elim0⟩

/-- Under the precondition no entry of the table of lengths is zero. -/
theorem table_ne_zero [Facts] (X Y : FVec Ideal S1048576x128 .f32) (num : IVec S2048 32)
    (h : fn (F := Ideal) X Y num = fun _ => 1#1) (j : S2048.Idx) : num j ≠ 0#32 := by
  have h0 := congrFun h ValueIdx.ix0
  dsimp only [fn] at h0
  have h1 := (IntOp.andi_eq_one.mp h0).2
  have h2 := Host.reduce_andi_all _ _ _ _ _ h1 j
  exact IntOp.cmpi_ne.mp h2

end Cert.Pre_finite_inputs.Decode

end
-- ==== Proof.lean ====
/-
  Every row of two embedding arrays [1048576, 128] gets its Euclidean distance; each distance is divided by the length
  of the segment the row lies in (the lengths come as a table of 2048 integers, turned into one length per row by a
  chain of integer operations the two programs share), and the 1048576 quotients are summed. The kernel program
  multiplies by reciprocal lengths computed on the host and sums the products laid out as [8192, 128]; the reference
  divides and sums in a line.

  On the extended reals the two agree exactly when no row divides by zero: a quotient by a nonzero real is the product
  with its reciprocal, and a sum does not depend on its layout. The precondition says that no entry of the table is
  zero, and a row's length is an entry of the table. What each program's run ends holding is read off the generated
  frame of the kernel (its 128 blocks tile the output) and off the reference's line of host operations.
-/
import proofs.«135408_j61280593379514_2_alg».proof.Defs
import proofs.«135408_j61280593379514_2_alg».proof.Proof.Gen.Kernel
import proofs.«135408_j61280593379514_2_alg».proof.Proof.Gen.Kernel.Skeleton
import proofs.«135408_j61280593379514_2_alg».proof.Proof.Gen.Kernel.Launch
import proofs.«135408_j61280593379514_2_alg».proof.Proof.Gen.Kernel.Points
import proofs.«135408_j61280593379514_2_alg».proof.Proof.Gen.Kernel.Frame
import proofs.«135408_j61280593379514_2_alg».proof.Proof.Gen.KernelIdeal
import proofs.«135408_j61280593379514_2_alg».proof.Proof.Gen.KernelIdeal.Skeleton
import proofs.«135408_j61280593379514_2_alg».proof.Proof.Gen.KernelIdeal.Launch
import proofs.«135408_j61280593379514_2_alg».proof.Proof.Gen.KernelIdeal.Points
import proofs.«135408_j61280593379514_2_alg».proof.Proof.Gen.KernelIdeal.Frame
import proofs.«135408_j61280593379514_2_alg».proof.Proof.Gen.ReferenceIdeal
import proofs.«135408_j61280593379514_2_alg».proof.Proof.Gen.Pre_finite_inputs
import proofs.«135408_j61280593379514_2_alg».proof.Proof.KernelValue
import proofs.«135408_j61280593379514_2_alg».proof.Proof.RefValue
import proofs.«135408_j61280593379514_2_alg».proof.Proof.Bridge
import proofs.«135408_j61280593379514_2_alg».proof.Proof.PreDecode
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- From memories that agree on the arguments both programs end with the same total: the kernel program's run and the
    reference's run, and the two totals one function of the arguments once the table of lengths has no zero entry. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact (Cert.Loss.totals_eq _ _ _ (Cert.Pre_finite_inputs.Decode.table_ne_zero _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
